-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result named.

  @main is four segments: the host operations that build the first neighbourhood means, the first kernel's grid,
  the host operations that build the second means from the first kernel's output, the second kernel's grid. The
  contents of every buffer at each boundary are a fold from the launch memory (`W0` … `W4`); at the return every
  buffer that outlives the call holds `W4`. So every weakly fair execution terminates with the result buffer at
  `W4` read at it, and the eight arguments as launched.
-/
import proofs.«103702_j74586402062468_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.KernelBody.lean ====
/-
  What one grid point of either kernel stores, read at an entry of its 5000 × 128 block.

  The body loads a block of means `x0`, the matching block of features `x1`, both weight matrices whole and the bias
  row, rounds the four matrices to bf16 (the identity on the ideal values), multiplies each block by the transpose of
  its weight matrix on the matrix unit into a zero accumulator, adds the two products, adds the bias row broadcast
  over the 5000 rows, and — in the first kernel only — takes the maximum with zero. At row `p`, column `q` of the
  block that is (Σ_c x0(p,c)·x2(q,c) + Σ_c x1(p,c)·x3(q,c)) + x4(0,q).
-/
import proofs.«103702_j74586402062468_2_alg».proof.Proof.Gen.KernelIdeal.Skeleton
import proofs.«103702_j74586402062468_2_alg».proof.Proof.LibGram
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- A block's product with a transposed weight matrix at (p, q), the operands rounded to bf16 first. -/
theorem blockDot_apply (x : Vec Ideal S5000x128 .f32) (w : Vec Ideal S128x128 .f32) (p : Fin 5000) (q : Fin 128) :
    matmul dot_S5000x128_S128x128_S5000x128_1_1_0_0_n_n none (truncf .bf16 x bitsLt_bf16_f32) (truncf .bf16 w bitsLt_bf16_f32)
        (constant (F := Ideal) S5000x128 .f32 0x00000000#32) (ix2 p q)
      = ∑ c : Fin 128, x (ix2 p c) * w (ix2 q c) :=
  Cert.LibGram.matmul_zero_apply (m := 5000) (k := 128) (n := 128) dot_S5000x128_S128x128_S5000x128_1_1_0_0_n_n_wf none
    (truncf .bf16 x bitsLt_bf16_f32) (truncf .bf16 w bitsLt_bf16_f32) p q

/-- The bias row broadcast over the block's rows, at (p, q): the row's entry q. -/
theorem biasRows_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [broadcastTo_1b_ab_apply _ broadcasts_S1x128_S5000x128 p q, shapeCast_self]

/-- The first kernel's stored value at (p, q). -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (((∑ c : Fin 128, x0 (ix2 p c) * x2 (ix2 q c)) + ∑ c : Fin 128, x1 (ix2 p c) * x3 (ix2 q c)) + x4 (ix2 (0 : Fin 1) q))
          (Ideal.ofBits .f32 0x00000000#32) := by
  unfold k0_pay1
  show max ((matmul (F := Ideal) dot_S5000x128_S128x128_S5000x128_1_1_0_0_n_n none (truncf .bf16 (shapeCast S5000x128 x0 shapeCasts_S5000x128_S5000x128) bitsLt_bf16_f32) (truncf .bf16 x2 bitsLt_bf16_f32) (constant (F := Ideal) S5000x128 .f32 0x00000000#32) (ix2 p q)
      + matmul (F := Ideal) dot_S5000x128_S128x128_S5000x128_1_1_0_0_n_n none (truncf .bf16 x1 bitsLt_bf16_f32) (truncf .bf16 x3 bitsLt_bf16_f32) (constant (F := Ideal) S5000x128 .f32 0x00000000#32) (ix2 p q))
      + broadcastTo S5000x128 (shapeCast S1x128 x4 shapeCasts_S1x128_S1x128) broadcasts_S1x128_S5000x128 (ix2 p q)) (Ideal.ofBits .f32 0x00000000#32) = _
  rw [shapeCast_self, blockDot_apply, blockDot_apply, biasRows_apply]

/-- The second kernel's stored value at (p, q): the same without the maximum. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = ((∑ c : Fin 128, x0 (ix2 p c) * x2 (ix2 q c)) + ∑ c : Fin 128, x1 (ix2 p c) * x3 (ix2 q c)) + x4 (ix2 (0 : Fin 1) q) := by
  unfold k1_pay1
  show (matmul (F := Ideal) dot_S5000x128_S128x128_S5000x128_1_1_0_0_n_n none (truncf .bf16 (shapeCast S5000x128 x0 shapeCasts_S5000x128_S5000x128) bitsLt_bf16_f32) (truncf .bf16 x2 bitsLt_bf16_f32) (constant (F := Ideal) S5000x128 .f32 0x00000000#32) (ix2 p q)
      + matmul (F := Ideal) dot_S5000x128_S128x128_S5000x128_1_1_0_0_n_n none (truncf .bf16 (shapeCast S5000x128 x1 shapeCasts_S5000x128_S5000x128) bitsLt_bf16_f32) (truncf .bf16 x3 bitsLt_bf16_f32) (constant (F := Ideal) S5000x128 .f32 0x00000000#32) (ix2 p q))
      + broadcastTo S5000x128 (shapeCast S1x128 x4 shapeCasts_S1x128_S1x128) broadcasts_S1x128_S5000x128 (ix2 p q) = _
  rw [shapeCast_self, shapeCast_self, blockDot_apply, blockDot_apply, biasRows_apply]

end Cert.KernelIdeal.Body
-- ==== Proof.Spec.lean ====
/-
  One layer of the two-layer graph network, as a function of whole arrays, index by index.

  A layer takes the neighbourhood means `M` and the node features `X` (both 100000 × 128), two 128 × 128 weight
  matrices `Wl`, `Wr` and a bias row `b`, and gives at node `p`, output feature `q`

      (Σ_c M(p,c) · Wl(q,c)  +  Σ_c X(p,c) · Wr(q,c))  +  b(q),

  the first layer followed by a maximum with zero. The two programs add the three summands in different orders;
  on the extended reals addition is commutative and associative with no side condition, so the two orders agree
  (`add_bias_last`). Nothing here needs an entry to be finite.
-/
import Idealize.ShloMosaic.Lib.ValueIdx
import Idealize.ShloMosaic.PureOps.Ideal

noncomputable section

namespace Cert.Sage

open Idealize.ShloMosaic Idealize.ShloMosaic.ValueIdx
open scoped BigOperators

/-- Node features: 100000 nodes, 128 features. -/
abbrev Nodes : Shape := ⟨2, ![100000, 128]⟩
/-- A weight matrix: 128 output features by 128 input features. -/
abbrev Wts : Shape := ⟨2, ![128, 128]⟩

/-- Row `p` of `A` against row `q` of `W`: the entry (p, q) of A · Wᵀ. -/
def rowDot (A : Nodes.Idx → EReal) (W : Wts.Idx → EReal) (p : Fin 100000) (q : Fin 128) : EReal :=
  ∑ c : Fin 128, A (ix2 p c) * W (ix2 q c)

/-- One layer before any activation, at node `p` and output feature `q`, the bias added last. -/
def layerAt (M X : Nodes.Idx → EReal) (Wl Wr : Wts.Idx → EReal) (b : Fin 128 → EReal) (p : Fin 100000) (q : Fin 128) : EReal :=
  (rowDot M Wl p q + rowDot X Wr p q) + b q

/-- The first layer: the maximum of the layer's value and zero. -/
def hidden (M X : Nodes.Idx → EReal) (Wl Wr : Wts.Idx → EReal) (b : Fin 128 → EReal) : Nodes.Idx → EReal :=
  fun i => max (layerAt M X Wl Wr b (i 0) (i 1)) (Ideal.ofBits .f32 0x00000000#32)

/-- The second layer: no activation. -/
def output (M X : Nodes.Idx → EReal) (Wl Wr : Wts.Idx → EReal) (b : Fin 128 → EReal) : Nodes.Idx → EReal :=
  fun i => layerAt M X Wl Wr b (i 0) (i 1)

/-- The hidden layer at node `p`, feature `q`. -/
theorem hidden_at (M X : Nodes.Idx → EReal) (Wl Wr : Wts.Idx → EReal) (b : Fin 128 → EReal) (p : Fin 100000) (q : Fin 128) :
    hidden M X Wl Wr b (ix2 p q) = max ((rowDot M Wl p q + rowDot X Wr p q) + b q) (Ideal.ofBits .f32 0x00000000#32) := rfl

/-- The output layer at node `p`, feature `q`. -/
theorem output_at (M X : Nodes.Idx → EReal) (Wl Wr : Wts.Idx → EReal) (b : Fin 128 → EReal) (p : Fin 100000) (q : Fin 128) :
    output M X Wl Wr b (ix2 p q) = (rowDot M Wl p q + rowDot X Wr p q) + b q := rfl

/-- The two layers in a row, over a neighbourhood-mean operator `mean` (a function of a whole feature array that both
    programs compute by the same host operations): the hidden features from the inputs and their means, the output
    from the hidden features and THEIR means. -/
def net (mean : (Nodes.Idx → EReal) → Nodes.Idx → EReal) (x : Nodes.Idx → EReal)
    (W1l : Wts.Idx → EReal) (b1 : Fin 128 → EReal) (W1r W2l : Wts.Idx → EReal) (b2 : Fin 128 → EReal) (W2r : Wts.Idx → EReal) :
    Nodes.Idx → EReal :=
  output (mean (hidden (mean x) x W1l W1r b1)) (hidden (mean x) x W1l W1r b1) W2l W2r b2

/-- Adding the bias between the two products is adding it last. -/
theorem add_bias_last (u v w : EReal) : (u + w) + v = (u + v) + w := add_right_comm u w v

end Cert.Sage
-- ==== Proof.KernelBlocks.lean ====
/-
  From blocks to arrays, for both grids.

  Each grid has 20 points; point `t` reads rows 5000·t … 5000·t + 4999 of the means and of the features, both
  weight matrices and the bias row whole, and writes the same rows of its output. What it writes at row p, column
  q of its block is the layer's value at array row 5000·t + p, column q — a function of the WHOLE input arrays, the
  same function at every point — and the twenty row blocks tile the 100000 rows, so after the grid the output array
  is that function everywhere. Stated for any contents `V` of the buffers when the grid is entered.
-/
import proofs.«103702_j74586402062468_2_alg».proof.Proof.Gen.KernelIdeal.Frame
import proofs.«103702_j74586402062468_2_alg».proof.Proof.KernelBody
import proofs.«103702_j74586402062468_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- A block of the first layer: if rows `p` of the two row blocks are rows `row p` of the arrays `M`, `X`, and the
    weights and the bias row are the arrays' own, the stored value at (p, q) is the layer's at (row p, q). -/
theorem hidden_block (M X : Cert.Sage.Nodes.Idx → EReal) (Wl Wr : Cert.Sage.Wts.Idx → EReal) (B : S1x128.Idx → EReal)
    (x0 x1 : Vec Ideal S5000x128 .f32) (x2 x3 : Vec Ideal S128x128 .f32) (x4 : Vec Ideal S1x128 .f32)
    (row : Fin 5000 → Fin 100000)
    (h0 : ∀ (p : Fin 5000) (c : Fin 128), x0 (ix2 p c) = M (ix2 (row p) c))
    (h1 : ∀ (p : Fin 5000) (c : Fin 128), x1 (ix2 p c) = X (ix2 (row p) c))
    (h2 : x2 = Wl) (h3 : x3 = Wr) (h4 : x4 = B) (p : Fin 5000) (q : Fin 128) :
    k0_pay1 (F := Ideal) x0 x1 x2 x3 x4 (ix2 p q)
      = Cert.Sage.hidden M X Wl Wr (fun q => B (ix2 (0 : Fin 1) q)) (ix2 (row p) q) := by
  subst h2 h3 h4
  rw [Body.pay0_apply]
  simp only [h0, h1]
  rfl

/-- The same for the second layer. -/
theorem output_block (M X : Cert.Sage.Nodes.Idx → EReal) (Wl Wr : Cert.Sage.Wts.Idx → EReal) (B : S1x128.Idx → EReal)
    (x0 x1 : Vec Ideal S5000x128 .f32) (x2 x3 : Vec Ideal S128x128 .f32) (x4 : Vec Ideal S1x128 .f32)
    (row : Fin 5000 → Fin 100000)
    (h0 : ∀ (p : Fin 5000) (c : Fin 128), x0 (ix2 p c) = M (ix2 (row p) c))
    (h1 : ∀ (p : Fin 5000) (c : Fin 128), x1 (ix2 p c) = X (ix2 (row p) c))
    (h2 : x2 = Wl) (h3 : x3 = Wr) (h4 : x4 = B) (p : Fin 5000) (q : Fin 128) :
    k1_pay1 (F := Ideal) x0 x1 x2 x3 x4 (ix2 p q)
      = Cert.Sage.output M X Wl Wr (fun q => B (ix2 (0 : Fin 1) q)) (ix2 (row p) q) := by
  subst h2 h3 h4
  rw [Body.pay1_apply]
  simp only [h0, h1]
  rfl

variable (V : (c : Dev nD) → (b : Ref sig .tc) → Buf (Elt Ideal) ((c : Thread nD τ).loc b))

/-! ## Grid 0 -/

/-- The index maps over the 20 points: the two row-blocked inputs and the output sit at block row `t`, column
    block 0; the weights and the bias row are whole at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that row `p` of point `t`'s block is. -/
def row0 (t : Fin cfg0.N) (p : Fin 5000) : Fin 100000 :=
  ⟨t.val * 5000 + p.val, by have ht : t.val < 20 := lt_of_lt_of_eq t.isLt N_0; have hp := p.isLt; omega⟩

/-- What point `t` writes back is block `t` of the layer's function of the arrays the grid was entered with. -/
theorem flushed0_eq (c : Dev nD) (t : Fin cfg0.N) :
    (dat0 V c).flushed 5 t = ((cfg0.win 5).blk t).view.read (Elt Ideal)
      (Cert.Sage.hidden (V c main_v22) (V c main_arg0) (V c main_arg2) (V c main_arg4) (fun q => V c main_v23 (ix2 (0 : Fin 1) q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts0 t
  funext j
  obtain ⟨p, q, rfl⟩ : ∃ (p : Fin 5000) (q : Fin 128), j = ix2 p q := ⟨j 0, j 1, eq_ix2 j⟩
  have hp := p.isLt
  have hq := q.isLt
  have hout : ((cfg0.win 5).blk t).view.emb (ix2 p q) = ix2 (row0 t p) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  have h0 : ∀ (p' : Fin 5000) (c' : Fin 128), iblk0 V c 0 t (ix2 p' c') = V c main_v22 (ix2 (row0 t p') c') := fun p' c' => by
    show V c main_v22 (((cfg0.win 0).blk t).view.emb (ix2 p' c')) = V c main_v22 (ix2 (row0 t p') c')
    refine congrArg (V c main_v22) ?_
    funext a; apply Fin.ext
    match a with
    | ⟨0, _⟩ => show win0_0.index t (0 : Fin 2) * 5000 + 1 * p'.val = t.val * 5000 + p'.val; omega
    | ⟨1, _⟩ => show win0_0.index t (1 : Fin 2) * 128 + 1 * c'.val = c'.val; omega
  have h1 : ∀ (p' : Fin 5000) (c' : Fin 128), iblk0 V c 1 t (ix2 p' c') = V c main_arg0 (ix2 (row0 t p') c') := fun p' c' => by
    show V c main_arg0 (((cfg0.win 1).blk t).view.emb (ix2 p' c')) = V c main_arg0 (ix2 (row0 t p') c')
    refine congrArg (V c main_arg0) ?_
    funext a; apply Fin.ext
    match a with
    | ⟨0, _⟩ => show win0_1.index t (0 : Fin 2) * 5000 + 1 * p'.val = t.val * 5000 + p'.val; omega
    | ⟨1, _⟩ => show win0_1.index t (1 : Fin 2) * 128 + 1 * c'.val = c'.val; omega
  have h2 : iblk0 V c 2 t = V c main_arg2 := by
    funext y
    show V c main_arg2 (((cfg0.win 2).blk t).view.emb y) = V c main_arg2 y
    refine congrArg (V c main_arg2) ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : iblk0 V c 3 t = V c main_arg4 := by
    funext y
    show V c main_arg4 (((cfg0.win 3).blk t).view.emb y) = V c main_arg4 y
    refine congrArg (V c main_arg4) ?_
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : iblk0 V c 4 t = V c main_v23 := by
    funext y
    show V c main_v23 (((cfg0.win 4).blk t).view.emb y) = V c main_v23 y
    refine congrArg (V c main_v23) ?_
    funext a; apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  show k0_pay1 (F := Ideal) (iblk0 V c 0 t) (iblk0 V c 1 t) (iblk0 V c 2 t) (iblk0 V c 3 t) (iblk0 V c 4 t) (ix2 p q)
    = Cert.Sage.hidden (V c main_v22) (V c main_arg0) (V c main_arg2) (V c main_arg4) (fun q => V c main_v23 (ix2 (0 : Fin 1) q)) (((cfg0.win 5).blk t).view.emb (ix2 p q))
  rw [hout]
  exact hidden_block (V c main_v22) (V c main_arg0) (V c main_arg2) (V c main_arg4) (V c main_v23)
    (iblk0 V c 0 t) (iblk0 V c 1 t) (iblk0 V c 2 t) (iblk0 V c 3 t) (iblk0 V c 4 t) (row0 t) h0 h1 h2 h3 h4 p q

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Twenty blocks of 5000 rows tile the 100000 rows: row `r` is in block `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_5 _, ?_⟩
  obtain ⟨-, -, -, -, -, -, -, -, -, -, e50, e51⟩ := idx_facts0 ⟨(i 0).val / 5000, ht⟩
  have e50' : win0_5.index ⟨(i 0).val / 5000, ht⟩ (0 : Fin 2) = (i 0).val / 5000 := e50
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- The grid's output array after its twenty points: the layer's function of the arrays it was entered with. -/
theorem final0 (c : Dev nD) : (dat0 V c).arrAt 5 cfg0.N
    = Cert.Sage.hidden (V c main_v22) (V c main_arg0) (V c main_arg2) (V c main_arg4) (fun q => V c main_v23 (ix2 (0 : Fin 1) q)) :=
  (dat0 V c).arrAt_eq_of_cover 5 _ (fun t _ => flushed0_eq V c t) cover0

/-! ## Grid 1 -/

/-- The index maps over the 20 points: the two row-blocked inputs and the output sit at block row `t`, column
    block 0; the weights and the bias row are whole at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array row that row `p` of point `t`'s block is. -/
def row1 (t : Fin cfg1.N) (p : Fin 5000) : Fin 100000 :=
  ⟨t.val * 5000 + p.val, by have ht : t.val < 20 := lt_of_lt_of_eq t.isLt N_1; have hp := p.isLt; omega⟩

/-- What point `t` writes back is block `t` of the layer's function of the arrays the grid was entered with. -/
theorem flushed1_eq (c : Dev nD) (t : Fin cfg1.N) :
    (dat1 V c).flushed 5 t = ((cfg1.win 5).blk t).view.read (Elt Ideal)
      (Cert.Sage.output (V c main_v42) (V c main_v24) (V c main_arg5) (V c main_arg7) (fun q => V c main_v43 (ix2 (0 : Fin 1) q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts1 t
  funext j
  obtain ⟨p, q, rfl⟩ : ∃ (p : Fin 5000) (q : Fin 128), j = ix2 p q := ⟨j 0, j 1, eq_ix2 j⟩
  have hp := p.isLt
  have hq := q.isLt
  have hout : ((cfg1.win 5).blk t).view.emb (ix2 p q) = ix2 (row1 t p) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  have h0 : ∀ (p' : Fin 5000) (c' : Fin 128), iblk1 V c 0 t (ix2 p' c') = V c main_v42 (ix2 (row1 t p') c') := fun p' c' => by
    show V c main_v42 (((cfg1.win 0).blk t).view.emb (ix2 p' c')) = V c main_v42 (ix2 (row1 t p') c')
    refine congrArg (V c main_v42) ?_
    funext a; apply Fin.ext
    match a with
    | ⟨0, _⟩ => show win1_0.index t (0 : Fin 2) * 5000 + 1 * p'.val = t.val * 5000 + p'.val; omega
    | ⟨1, _⟩ => show win1_0.index t (1 : Fin 2) * 128 + 1 * c'.val = c'.val; omega
  have h1 : ∀ (p' : Fin 5000) (c' : Fin 128), iblk1 V c 1 t (ix2 p' c') = V c main_v24 (ix2 (row1 t p') c') := fun p' c' => by
    show V c main_v24 (((cfg1.win 1).blk t).view.emb (ix2 p' c')) = V c main_v24 (ix2 (row1 t p') c')
    refine congrArg (V c main_v24) ?_
    funext a; apply Fin.ext
    match a with
    | ⟨0, _⟩ => show win1_1.index t (0 : Fin 2) * 5000 + 1 * p'.val = t.val * 5000 + p'.val; omega
    | ⟨1, _⟩ => show win1_1.index t (1 : Fin 2) * 128 + 1 * c'.val = c'.val; omega
  have h2 : iblk1 V c 2 t = V c main_arg5 := by
    funext y
    show V c main_arg5 (((cfg1.win 2).blk t).view.emb y) = V c main_arg5 y
    refine congrArg (V c main_arg5) ?_
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_arg7 := by
    funext y
    show V c main_arg7 (((cfg1.win 3).blk t).view.emb y) = V c main_arg7 y
    refine congrArg (V c main_arg7) ?_
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : iblk1 V c 4 t = V c main_v43 := by
    funext y
    show V c main_v43 (((cfg1.win 4).blk t).view.emb y) = V c main_v43 y
    refine congrArg (V c main_v43) ?_
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega
  show k1_pay1 (F := Ideal) (iblk1 V c 0 t) (iblk1 V c 1 t) (iblk1 V c 2 t) (iblk1 V c 3 t) (iblk1 V c 4 t) (ix2 p q)
    = Cert.Sage.output (V c main_v42) (V c main_v24) (V c main_arg5) (V c main_arg7) (fun q => V c main_v43 (ix2 (0 : Fin 1) q)) (((cfg1.win 5).blk t).view.emb (ix2 p q))
  rw [hout]
  exact output_block (V c main_v42) (V c main_v24) (V c main_arg5) (V c main_arg7) (V c main_v43)
    (iblk1 V c 0 t) (iblk1 V c 1 t) (iblk1 V c 2 t) (iblk1 V c 3 t) (iblk1 V c 4 t) (row1 t) h0 h1 h2 h3 h4 p q

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Twenty blocks of 5000 rows tile the 100000 rows: row `r` is in block `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  obtain ⟨-, -, -, -, -, -, -, -, -, -, e50, e51⟩ := idx_facts1 ⟨(i 0).val / 5000, ht⟩
  have e50' : win1_5.index ⟨(i 0).val / 5000, ht⟩ (0 : Fin 2) = (i 0).val / 5000 := e50
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

/-- The grid's output array after its twenty points: the layer's function of the arrays it was entered with. -/
theorem final1 (c : Dev nD) : (dat1 V c).arrAt 5 cfg1.N
    = Cert.Sage.output (V c main_v42) (V c main_v24) (V c main_arg5) (V c main_arg7) (fun q => V c main_v43 (ix2 (0 : Fin 1) q)) :=
  (dat1 V c).arrAt_eq_of_cover 5 _ (fun t _ => flushed1_eq V c t) cover1

end Cert.KernelIdeal.Blocks
-- ==== Proof.KernelHost.lean ====
/-
  What the two grids are entered with, as functions of the launch memory.

  Before the first grid the host builds the neighbourhood means of the input features (slices of the edge list,
  index normalisation, a gather, two scatter-adds, a clamp of the in-degree at one, a division) and lays the first
  bias out as a row; the features and the first two weight matrices are the arguments themselves. Between the
  grids it builds the means of the first grid's output from the SAME source, destination and ones vectors, and lays
  the second bias out as a row. The host term for the means is, operation for operation, the reference's own: it is
  stated here as that term (`Read.val_main_v22`), applied to the features at hand.
-/
import proofs.«103702_j74586402062468_2_alg».proof.Proof.Gen.KernelIdeal.Frame
import proofs.«103702_j74586402062468_2_alg».proof.Proof.Gen.ReferenceIdeal.Read
import Idealize.ShloMosaic.Lib.StableHlo.Run
import Idealize.ShloMosaic.Lib.ValueLayout
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## Entering the first grid -/

set_option maxHeartbeats 4000000 in
/-- The first grid's means are the reference's mean term of the input features over the edge list. -/
theorem entry0_mean (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

theorem entry0_feat (c : Dev nD) : V1 m ρ c main_arg0 = (m ((c : Thread nD τ).loc main_arg0)) := by
  show StableHlo.after hostOps0 (W0 m ρ c) (Proc.devRef .tc main_arg0) = _
  after_results_simp <;> rfl

theorem entry0_Wl (c : Dev nD) : V1 m ρ c main_arg2 = (m ((c : Thread nD τ).loc main_arg2)) := by
  show StableHlo.after hostOps0 (W0 m ρ c) (Proc.devRef .tc main_arg2) = _
  after_results_simp <;> rfl

theorem entry0_Wr (c : Dev nD) : V1 m ρ c main_arg4 = (m ((c : Thread nD τ).loc main_arg4)) := by
  show StableHlo.after hostOps0 (W0 m ρ c) (Proc.devRef .tc main_arg4) = _
  after_results_simp <;> rfl

/-- The first bias as a row: entry (0, q) is entry q of the bias. -/
theorem entry0_bias (c : Dev nD) :
    (fun q : Fin 128 => V1 m ρ c main_v23 (ix2 (0 : Fin 1) q)) = fun q => (m ((c : Thread nD τ).loc main_arg3)) (ix1 q) := by
  have e : V1 m ρ c main_v23 = shapeCast S1x128 (m ((c : Thread nD τ).loc main_arg3)) shapeCasts_S128_S1x128 := by
    show StableHlo.after hostOps0 (W0 m ρ c) (Proc.devRef .tc main_v23) = _
    after_results_simp <;> rfl
  funext q
  rw [e]
  exact shapeCast_a_1a_apply _ shapeCasts_S128_S1x128 (0 : Fin 1) q

/-! ## Between the grids: what the first stretch computed is still there -/

theorem src_kept (c : Dev nD) :
    W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

theorem dst_kept (c : Dev nD) :
    W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

theorem ones_kept (c : Dev nD) :
    W2 m ρ c (Proc.devRef .tc main_v4) = Cert.ReferenceIdeal.Read.val_main_v14 (F := Ideal) := by
  rw [W2_of_ne m ρ c main_v4 (by decide)]
  show StableHlo.after hostOps0 (W0 m ρ c) (Proc.devRef .tc main_v4) = _
  after_results_simp <;> rfl

theorem bias2_kept (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

/-! ## Entering the second grid -/

set_option maxHeartbeats 4000000 in
/-- The second grid's means are the same mean term of the first grid's output. -/
theorem entry1_mean (c : Dev nD) :
    V3 m ρ c main_v42 = Cert.ReferenceIdeal.Read.val_main_v22 (F := Ideal) (W2 m ρ c (Proc.devRef .tc main_v24)) (m ((c : Thread nD τ).loc main_arg1)) := by
  show StableHlo.after hostOps1 (W2 m ρ c) (Proc.devRef .tc main_v42) = _
  after_results_simp
  rw [src_kept m ρ c, dst_kept m ρ c, ones_kept m ρ c]
  rfl

theorem entry1_feat (c : Dev nD) : V3 m ρ c main_v24 = W2 m ρ c (Proc.devRef .tc main_v24) := by
  show StableHlo.after hostOps1 (W2 m ρ c) (Proc.devRef .tc main_v24) = _
  after_results_simp <;> rfl

/-- A weight matrix the second grid reads and nothing writes: what the grid finds is what it leaves, and the
    argument ends as launched. -/
theorem entry1_Wl (c : Dev nD) : V3 m ρ c main_arg5 = (m ((c : Thread nD τ).loc main_arg5)) :=
  ((W4_arr m ρ c 2).trans (((dat1 (V3 m ρ) c).arrAt_in 2 rfl _).trans (A_eq1 (V3 m ρ) c 2))).symm.trans (W4_main_arg5 m ρ c)

theorem entry1_Wr (c : Dev nD) : V3 m ρ c main_arg7 = (m ((c : Thread nD τ).loc main_arg7)) :=
  ((W4_arr m ρ c 3).trans (((dat1 (V3 m ρ) c).arrAt_in 3 rfl _).trans (A_eq1 (V3 m ρ) c 3))).symm.trans (W4_main_arg7 m ρ c)

/-- The second bias as a row. -/
theorem entry1_bias (c : Dev nD) :
    (fun q : Fin 128 => V3 m ρ c main_v43 (ix2 (0 : Fin 1) q)) = fun q => (m ((c : Thread nD τ).loc main_arg6)) (ix1 q) := by
  have e : V3 m ρ c main_v43 = shapeCast S1x128 (m ((c : Thread nD τ).loc main_arg6)) shapeCasts_S128_S1x128 := by
    show StableHlo.after hostOps1 (W2 m ρ c) (Proc.devRef .tc main_v43) = _
    after_results_simp
    rw [bias2_kept m ρ c]
    rfl
  funext q
  rw [e]
  exact shapeCast_a_1a_apply _ shapeCasts_S128_S1x128 (0 : Fin 1) q

end Cert.KernelIdeal.Host
-- ==== Proof.KernelValue.lean ====
/-
  The idealized kernel program's result as the two layers of the specification.

  The result buffer ends at what the second grid leaves: the second layer's function of the arrays that grid was
  entered with — the means of the first grid's output, that output, the second weights and bias. The first grid's
  output is the first layer's function of the arrays IT was entered with — the means of the input features, the
  features, the first weights and bias. Both means are the one host term (`Read.val_main_v22`) over the edge list.
-/
import proofs.«103702_j74586402062468_2_alg».proof.Proof.KernelRun
import proofs.«103702_j74586402062468_2_alg».proof.Proof.KernelBlocks
import proofs.«103702_j74586402062468_2_alg».proof.Proof.KernelHost
import proofs.«103702_j74586402062468_2_alg».proof.Proof.Spec

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The network over the launch memory's arguments, the means taken over its edge list. -/
abbrev result (c : Dev nD) : S100000x128.Idx → EReal :=
  Cert.Sage.net (fun f => Cert.ReferenceIdeal.Read.val_main_v22 (F := Ideal) f (m ((c : Thread nD τ).loc main_arg1)))
    (m ((c : Thread nD τ).loc main_arg0)) (m ((c : Thread nD τ).loc main_arg2)) (fun q => (m ((c : Thread nD τ).loc main_arg3)) (ix1 q)) (m ((c : Thread nD τ).loc main_arg4))
    (m ((c : Thread nD τ).loc main_arg5)) (fun q => (m ((c : Thread nD τ).loc main_arg6)) (ix1 q)) (m ((c : Thread nD τ).loc main_arg7))

/-- After the first grid its output array holds the hidden features. -/
theorem hidden_value (c : Dev nD) :
    W2 m ρ c (Proc.devRef .tc main_v24)
      = Cert.Sage.hidden (Cert.ReferenceIdeal.Read.val_main_v22 (F := Ideal) (m ((c : Thread nD τ).loc main_arg0)) (m ((c : Thread nD τ).loc main_arg1)))
          (m ((c : Thread nD τ).loc main_arg0)) (m ((c : Thread nD τ).loc main_arg2)) (m ((c : Thread nD τ).loc main_arg4)) (fun q => (m ((c : Thread nD τ).loc main_arg3)) (ix1 q)) := by
  refine (W2_arr m ρ c 5).trans ?_
  rw [Blocks.final0 (V1 m ρ) c, Host.entry0_mean m ρ c, Host.entry0_feat m ρ c, Host.entry0_Wl m ρ c, Host.entry0_Wr m ρ c,
    Host.entry0_bias m ρ c]

/-- After the second grid the result buffer holds the network's output. -/
theorem result_value (c : Dev nD) : W4 m ρ c (Proc.devRef .tc main_v44) = result m c := by
  refine (W4_arr m ρ c 5).trans ?_
  rw [Blocks.final1 (V3 m ρ) c, Host.entry1_mean m ρ c, Host.entry1_feat m ρ c, Host.entry1_Wl m ρ c, Host.entry1_Wr m ρ c,
    Host.entry1_bias m ρ c, hidden_value m ρ c]
  rfl

/-- The run, read: the result at the network's output, the arguments as launched. -/
theorem run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (Run.run_result m ρ)

end Cert.KernelIdeal.Value
-- ==== Proof.RefValue.lean ====
/-
  The reference's result as the two layers of the specification.

  The reference computes each layer as (M · Wlᵀ + b) + X · Wrᵀ on whole arrays: a transpose and a host matrix
  product for each weight, the bias broadcast to every row, two additions; then a maximum with zero after the
  first layer. Read at node p, feature q, each product is Σ_c A(p,c)·W(q,c) and the broadcast bias is b(q), so the
  layer is the specification's with the bias added between the products instead of last — equal, since addition on
  the extended reals is commutative and associative. The neighbourhood means are the same host term in both
  layers: the second layer's is the first layer's term applied to the hidden features.
-/
import proofs.«103702_j74586402062468_2_alg».proof.Proof.Gen.ReferenceIdeal.Read
import proofs.«103702_j74586402062468_2_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The neighbourhood means of a feature array over the edge list: gather the source rows, add them into the
    destination rows, divide by the in-degree (at least one). Opaque here: both programs compute it by the same
    host operations. -/
abbrev mean (e : (⟨S2x1600000, .i32⟩ : BufTy).Contents (Elt Ideal)) (f : (⟨S100000x128, .f32⟩ : BufTy).Contents (Elt Ideal)) :
    (⟨S100000x128, .f32⟩ : BufTy).Contents (Elt Ideal) := val_main_v22 (F := Ideal) f e

/-- A · Wᵀ by transpose and host product, at (p, q): row p of A against row q of W. -/
theorem prodT_apply (A : (⟨S100000x128, .f32⟩ : BufTy).Contents (Elt Ideal)) (W : (⟨S128x128, .f32⟩ : BufTy).Contents (Elt Ideal))
    (p : Fin 100000) (q : Fin 128) :
    val_main_v29 (F := Ideal) A W (ix2 p q) = Cert.Sage.rowDot A W p q := by
  rw [val_main_v29_apply]
  unfold Cert.Sage.rowDot
  refine Finset.sum_congr rfl fun k _ => ?_
  rw [val_main_v28_apply]
  have el : lidx_main_v29 (ix2 p q) k = ix2 p k := funext fun a => Fin.ext (by
    match a with
    | ⟨0, _⟩ => rfl
    | ⟨1, _⟩ => rfl)
  have er : idx_main_v28 (ridx_main_v29 (ix2 p q) k) = ix2 q k := funext fun a => Fin.ext (by
    match a with
    | ⟨0, _⟩ => rfl
    | ⟨1, _⟩ => rfl)
  rw [el, er]

/-- The bias broadcast to every row, at (p, q): entry q of the bias. -/
theorem biasAll_apply (b : (⟨S128, .f32⟩ : BufTy).Contents (Elt Ideal)) (p : Fin 100000) (q : Fin 128) :
    val_main_v26 (F := Ideal) b (ix2 p q) = b (ix1 q) := by
  rw [val_main_v26_apply, val_main_v25_apply]
  refine congrArg b ?_
  funext a
  match a with
  | ⟨0, _⟩ => rfl

/-- The zero every entry is compared with. -/
theorem zeros_apply (i : S100000x128.Idx) : val_main_call0_v0 (F := Ideal) i = Ideal.ofBits .f32 0x00000000#32 := by
  rw [val_main_call0_v0_apply, val_main_call0_cst_apply]
  rfl

/-- The first layer's product with the means is the general product A · Wᵀ at A the means. -/
theorem prod_mean1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v24 (F := Ideal) x0 x1 x2 = val_main_v29 (F := Ideal) (val_main_v22 (F := Ideal) x0 x1) x2 := rfl

/-- The first layer of the reference is the specification's hidden layer. -/
theorem hidden_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4 = Cert.Sage.hidden (mean x1 x0) x0 x2 x4 (fun q => x3 (ix1 q)) := by
  funext i
  obtain ⟨p, q, rfl⟩ : ∃ (p : Fin 100000) (q : Fin 128), i = ix2 p q := ⟨i 0, i 1, eq_ix2 i⟩
  rw [Cert.Sage.hidden_at, val_main_v31_apply, val_main_v30_apply, val_main_v27_apply, prod_mean1, prodT_apply, prodT_apply,
    biasAll_apply, zeros_apply]
  simp only [Ideal.maximumf_def, Ideal.addf_def]
  rw [Cert.Sage.add_bias_last]

/-- The second layer's means are the first layer's term of the hidden features. -/
theorem mean_hidden (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v54 (F := Ideal) x0 x1 x2 x3 x4 = mean x1 (val_main_v31 (F := Ideal) x0 x1 x2 x3 x4) := rfl

/-- The second layer's two products and its bias, through the general product and the general bias row. -/
theorem prod_mean2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x128, .f32⟩ : BufTy).Contents (Elt Ideal)) :
    val_main_v56 (F := Ideal) x0 x1 x2 x3 x4 x5 = val_main_v29 (F := Ideal) (val_main_v54 (F := Ideal) x0 x1 x2 x3 x4) x5 := rfl

theorem prod_hidden2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x7 : (⟨S128x128, .f32⟩ : BufTy).Contents (Elt Ideal)) :
    val_main_v61 (F := Ideal) x0 x1 x2 x3 x4 x7 = val_main_v29 (F := Ideal) (val_main_v31 (F := Ideal) x0 x1 x2 x3 x4) x7 := rfl

theorem bias2_eq (x6 : (⟨S128, .f32⟩ : BufTy).Contents (Elt Ideal)) : val_main_v58 (F := Ideal) x6 = val_main_v26 (F := Ideal) x6 := rfl

/-- The reference's result is the specification's network. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v62 (F := Ideal) x0 x1 x2 x3 x4 x5 x6 x7
      = Cert.Sage.net (mean x1) x0 x2 (fun q => x3 (ix1 q)) x4 x5 (fun q => x6 (ix1 q)) x7 := by
  unfold Cert.Sage.net
  rw [← hidden_eq x0 x1 x2 x3 x4]
  funext i
  obtain ⟨p, q, rfl⟩ : ∃ (p : Fin 100000) (q : Fin 128), i = ix2 p q := ⟨i 0, i 1, eq_ix2 i⟩
  rw [Cert.Sage.output_at, val_main_v62_apply, val_main_v59_apply, prod_mean2, prod_hidden2, bias2_eq, prodT_apply, prodT_apply,
    biasAll_apply]
  simp only [Ideal.addf_def]
  rw [Cert.Sage.add_bias_last, mean_hidden]

end Cert.ReferenceIdeal.RefValue
-- ==== Proof.lean ====
/-
  The certificate of a two-layer graph network: neighbourhood means by gather and scatter-add on the host, then
  per layer (mean · Wlᵀ + x · Wrᵀ) + b on the matrix unit, twenty row blocks at a time, a maximum with zero after
  the first layer — against the same network written with whole-array host products, the bias added between the
  two products.

  At the ideal values both programs compute, at node p and feature q of each layer,
  Σ_c M(p,c)·Wl(q,c) + Σ_c X(p,c)·Wr(q,c) + b(q) in two orders of addition; the rounding to bf16 before the products
  is the identity there, a blocked product is the whole product read at the block's rows, and the means are one
  host term in both programs. No entry needs to be finite: only commutativity and associativity of addition on the
  extended reals are used. The three frames: the two kernel programs' are generated; the reference's is its run with
  the result dropped. The idealization rewrote nothing, so `preserves` is trivial.
-/
import proofs.«103702_j74586402062468_2_alg».proof.Defs
import proofs.«103702_j74586402062468_2_alg».proof.Proof.Gen.Kernel
import proofs.«103702_j74586402062468_2_alg».proof.Proof.Gen.Kernel.Skeleton
import proofs.«103702_j74586402062468_2_alg».proof.Proof.Gen.Kernel.Launch
import proofs.«103702_j74586402062468_2_alg».proof.Proof.Gen.Kernel.Points
import proofs.«103702_j74586402062468_2_alg».proof.Proof.Gen.Kernel.Frame
import proofs.«103702_j74586402062468_2_alg».proof.Proof.Gen.KernelIdeal
import proofs.«103702_j74586402062468_2_alg».proof.Proof.Gen.KernelIdeal.Skeleton
import proofs.«103702_j74586402062468_2_alg».proof.Proof.Gen.KernelIdeal.Launch
import proofs.«103702_j74586402062468_2_alg».proof.Proof.Gen.KernelIdeal.Points
import proofs.«103702_j74586402062468_2_alg».proof.Proof.Gen.KernelIdeal.Frame
import proofs.«103702_j74586402062468_2_alg».proof.Proof.Gen.ReferenceIdeal
import proofs.«103702_j74586402062468_2_alg».proof.Proof.Gen.ReferenceIdeal.Run
import proofs.«103702_j74586402062468_2_alg».proof.Proof.Gen.ReferenceIdeal.Read
import proofs.«103702_j74586402062468_2_alg».proof.Proof.Gen.Pre_finite_inputs
import proofs.«103702_j74586402062468_2_alg».proof.Proof.KernelValue
import proofs.«103702_j74586402062468_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network's output over arguments that agree. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v62_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
